-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x4096 : Shape := ⟨3, ![32, 64, 4096]⟩
abbrev S32x64x20x1024 : Shape := ⟨4, ![32, 64, 20, 1024]⟩
abbrev S32x64 : Shape := ⟨2, ![32, 64]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S32x64x4096 : S_.BroadcastsInDim S32x64x4096 (![] : Fin 0 → Fin S32x64x4096.rank)
  reducesTo_S32x64x4096_S_d0_1_2 : S32x64x4096.ReducesTo [0, 1, 2] S_
  h_S_ : 0 < S_.numel
  bcast_S_S32x64x20x1024 : S_.BroadcastsInDim S32x64x20x1024 (![] : Fin 0 → Fin S32x64x20x1024.rank)
  reducesTo_S32x64x20x1024_S_d0_1_2_3 : S32x64x20x1024.ReducesTo [0, 1, 2, 3] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg2 : IVec S32x64 32) (main_arg5 : FVec F S1024x1024 .f32) (main_arg6 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_c_10 : IVec S_ 32 := constantI S_ 32 0#32
  let main_v29 : IVec S32x64 32 := broadcastInDim S32x64 ![] bcast_S_S32x64 main_c_10
  let main_v30 : IVec S32x64 1 := cmpi .ne main_arg2 main_v29
  let main_c_11 : IVec S_ 1 := constantI S_ 1 1#1
  let main_v31 : IVec S_ 1 := (fun x v => Host.reduce IntOp.andi x v reducesTo_S32x64_S_d0_1 h_S_) main_v30 main_c_11
  let main_v32 : IVec S_ 1 := andi main_v28 main_v31
  main_v32

def fn {F : FTy → Type} [FloatOps F] (main_arg0 : FVec F S32x64x4096 .f32) (main_arg1 : FVec F S32x64x20x1024 .f32) (main_arg2 : IVec S32x64 32) (main_arg3 : FVec F S4096x1024 .f32) (main_arg4 : FVec F S1024 .f32) (main_arg5 : FVec F S1024x1024 .f32) (main_arg6 : FVec F S1024 .f32) : IVec S_ 1 :=
  let main_v0 : FVec F S32x64x4096 .f32 := Host.absf main_arg0
  let main_cst : FVec F S_ .f32 := constant S_ .f32 0x7F800000#32
  let main_v1 : FVec F S32x64x4096 .f32 := broadcastInDim S32x64x4096 ![] bcast_S_S32x64x4096 main_cst
  let main_v2 : IVec S32x64x4096 1 := cmpf .olt main_v0 main_v1
  let main_c : IVec S_ 1 := constantI S_ 1 1#1
  let main_v3 : IVec S_ 1 := (fun x v => Host.reduce IntOp.andi x v reducesTo_S32x64x4096_S_d0_1_2 h_S_) main_v2 main_c
  let main_v4 : FVec F S32x64x20x1024 .f32 := Host.absf main_arg1
  let main_cst_0 : FVec F S_ .f32 := constant S_ .f32 0x7F800000#32
  let main_v5 : FVec F S32x64x20x1024 .f32 := broadcastInDim S32x64x20x1024 ![] bcast_S_S32x64x20x1024 main_cst_0
  let main_v6 : IVec S32x64x20x1024 1 := cmpf .olt main_v4 main_v5
  let main_c_1 : IVec S_ 1 := constantI S_ 1 1#1
  let main_v7 : IVec S_ 1 := (fun x v => Host.reduce IntOp.andi x v reducesTo_S32x64x20x1024_S_d0_1_2_3 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg5 main_arg6 main_v13 main_v16
-- ==== Kernel.lean ====
abbrev S32x64x4096 : Shape := ⟨3, ![32, 64, 4096]⟩
abbrev S32x64x20x1024 : Shape := ⟨4, ![32, 64, 20, 1024]⟩
abbrev S32x64 : Shape := ⟨2, ![32, 64]⟩
abbrev S4096x1024 : Shape := ⟨2, ![4096, 1024]⟩
abbrev S1024 : Shape := ⟨1, ![1024]⟩
abbrev S1024x1024 : Shape := ⟨2, ![1024, 1024]⟩
abbrev S2048x20x1024 : Shape := ⟨3, ![2048, 20, 1024]⟩
abbrev S2048x4096 : Shape := ⟨2, ![2048, 4096]⟩
abbrev S2048x1 : Shape := ⟨2, ![2048, 1]⟩
abbrev S_ : Shape := ⟨0, ![]⟩
abbrev S1x1024 : Shape := ⟨2, ![1, 1024]⟩
abbrev S2048x1024 : Shape := ⟨2, ![2048, 1024]⟩
abbrev S64x20x1024 : Shape := ⟨3, ![64, 20, 1024]⟩
abbrev S64x4096 : Shape := ⟨2, ![64, 4096]⟩
abbrev S64x1 : Shape := ⟨2, ![64, 1]⟩
abbrev S64x1024 : Shape := ⟨2, ![64, 1024]⟩
abbrev S32x64x1024 : Shape := ⟨3, ![32, 64, 1024]⟩

abbrev nBuf : Space → Nat
  | .hbm => 22
  | .vmem => 14
  | .smem => 0
  | _ => 0

abbrev bufTy : (tb : Table) → Fin (tcTables nBuf tb) → BufTy
  | .hbm, ⟨0, _⟩ => ⟨S32x64x4096, .f32⟩
  | .hbm, ⟨1, _⟩ => ⟨S32x64x20x1024, .f32⟩
  | .hbm, ⟨2, _⟩ => ⟨S32x64, .i32⟩
  | .hbm, ⟨3, _⟩ => ⟨S4096x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2048x20x1024, .f32⟩
  | .hbm, ⟨8, _⟩ => ⟨S2048x4096, .f32⟩
  | .hbm, ⟨9, _⟩ => ⟨S2048x1, .i32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S4096x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S32x64x1024, .f32⟩
  | .hbm, ⟨21, _⟩ => ⟨S32x64x1024, .f32⟩
  | .local _ .vmem, ⟨0, _⟩ => ⟨S64x20x1024, .f32⟩
  | .local _ .vmem, ⟨1, _⟩ => ⟨S64x20x1024, .f32⟩
  | .local _ .vmem, ⟨2, _⟩ => ⟨S64x4096, .f32⟩
  | .local _ .vmem, ⟨3, _⟩ => ⟨S64x4096, .f32⟩
  | .local _ .vmem, ⟨4, _⟩ => ⟨S64x1, .f32⟩
  | .local _ .vmem, ⟨5, _⟩ => ⟨S64x1, .f32⟩
  | .local _ .vmem, ⟨6, _⟩ => ⟨S4096x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S32x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x20x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S32x64x20x1024_S2048x20x1024 : S32x64x20x1024.ShapeCasts S2048x20x1024
  shapeCasts_S32x64x4096_S2048x4096 : S32x64x4096.ShapeCasts S2048x4096
  shapeCasts_S32x64_S2048x1 : S32x64.ShapeCasts S2048x1
  bcast_S_S2048x1 : S_.BroadcastsInDim S2048x1 (![] : Fin 0 → Fin S2048x1.rank)
  bitsLt_bf16_f32 : FTy.bits .bf16 < FTy.bits .f32
  shapeCasts_S1024_S1x1024 : S1024.ShapeCasts S1x1024
  inb_S64x20x1024_S64x20x1024_0_0_0 : ∀ a, (![0, 0, 0] : Fin 3 → Nat) a + S64x20x1024.size a ≤ S64x20x1024.size a
  h_S64x20x1024 : 0 < S64x20x1024.numel
  shapeCasts_S64x20x1024_S64x20x1024 : S64x20x1024.ShapeCasts S64x20x1024
  reduces_S64x20x1024_S64x1024 : S64x20x1024.Reduces [1] S64x1024
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S2048x1024_S32x64x1024 : S2048x1024.ShapeCasts S32x64x1024
  dot_S64x1024_S1024x1024_S64x1024_1_0_0_1_n_n_wf : DotDims.WF S64x1024 S1024x1024 S64x1024 [1] [0] [0] [1] [] []
  dot_S64x4096_S4096x1024_S64x1024_1_0_0_1_n_n_wf : DotDims.WF S64x4096 S4096x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x20x1024.size a ≤ S2048x20x1024.size a
  hwx0_0 : ∀ i : grid0.Coords, EltTy.bits .f32 = 32 ∨ (Rect.block (s := S2048x20x1024) S64x20x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S2048x4096.size a
  hwx0_1 : ∀ i : grid0.Coords, EltTy.bits .f32 = 32 ∨ (Rect.block (s := S2048x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S2048x1.size a
  hwx0_2 : ∀ i : grid0.Coords, EltTy.bits .f32 = 32 ∨ (Rect.block (s := S2048x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S2048x1024.size a
  hwx0_7 : ∀ i : grid0.Coords, EltTy.bits .f32 = 32 ∨ (Rect.block (s := S2048x1024) S64x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S2048x1024.size a
  hwx0_8 : ∀ i : grid0.Coords, EltTy.bits .f32 = 32 ∨ (Rect.block (s := S2048x1024) S64x1024.size (cc0_transform_8 i) (hinb0_8 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf

abbrev win0_0 : Pipeline.Window sig grid0 :=
  Pipeline.Window.ofSpec (Memref.whole main_v0) S64x20x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S64x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x64x4096 : Shape := ⟨3, ![32, 64, 4096]⟩
abbrev S32x64x20x1024 : Shape := ⟨4, ![32, 64, 20, 1024]⟩
abbrev S32x64 : Shape := ⟨2, ![32, 64]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S32x64x1024 : Shape := ⟨3, ![32, 64, 1024]⟩
abbrev S32x64x1 : Shape := ⟨3, ![32, 64, 1]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32x64x4096, .f32⟩
  | .hbm, ⟨1, _⟩ => ⟨S32x64x20x1024, .f32⟩
  | .hbm, ⟨2, _⟩ => ⟨S32x64, .i32⟩
  | .hbm, ⟨3, _⟩ => ⟨S4096x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S32x64x1024, .f32⟩
  | .hbm, ⟨9, _⟩ => ⟨S32x64x1, .i32⟩
  | .hbm, ⟨10, _⟩ => ⟨S32x64x1, .f32⟩
  | .hbm, ⟨11, _⟩ => ⟨S32x64x1024, .f32⟩
  | .hbm, ⟨12, _⟩ => ⟨S32x64x1024, .f32⟩
  | .hbm, ⟨13, _⟩ => ⟨S32x64x1024, .f32⟩
  | .hbm, ⟨14, _⟩ => ⟨S1x1x1024, .f32⟩
  | .hbm, ⟨15, _⟩ => ⟨S32x64x1024, .f32⟩
  | .hbm, ⟨16, _⟩ => ⟨S32x64x1024, .f32⟩
  | .hbm, ⟨17, _⟩ => ⟨S32x64x1024, .f32⟩
  | .hbm, ⟨18, _⟩ => ⟨S1x1x1024, .f32⟩
  | .hbm, ⟨19, _⟩ => ⟨S32x64x1024, .f32⟩
  | .hbm, ⟨20, _⟩ => ⟨S32x64x1024, .f32⟩
  | _, _ => ⟨S32x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  reducesTo_S32x64x20x1024_S32x64x1024_d2 : S32x64x20x1024.ReducesTo [2] S32x64x1024
  h_S_ : 0 < S_.numel
  bcast_S32x64_S32x64x1_0_1 : S32x64.BroadcastsInDim S32x64x1 (![0, 1] : Fin 2 → Fin S32x64x1.rank)
  bcast_S32x64x1_S32x64x1024_0_1_2 : S32x64x1.BroadcastsInDim S32x64x1024 (![0, 1, 2] : Fin 3 → Fin S32x64x1024.rank)
  bcast_S1024_S1x1x1024_2 : S1024.BroadcastsInDim S1x1x1024 (![2] : Fin 1 → Fin S1x1x1024.rank)
  bcast_S1x1x1024_S32x64x1024_0_1_2 : S1x1x1024.BroadcastsInDim S32x64x1024 (![0, 1, 2] : Fin 3 → Fin S32x64x1024.rank)
  dot_S32x64x4096_S4096x1024_S32x64x1024_2_0_01_1_n_n_wf : DotDims.WF S32x64x4096 S4096x1024 S32x64x1024 [2] [0] [0, 1] [1] [] []
  dot_S32x64x1024_S1024x1024_S32x64x1024_2_0_01_1_n_n_wf : DotDims.WF S32x64x1024 S1024x1024 S32x64x1024 [2] [0] [0, 1] [1] [] []

variable [Facts₀]

def dot_S32x64x4096_S4096x1024_S32x64x1024_2_0_01_1_n_n : DotDims S32x64x4096 S4096x1024 S32x64x1024 where
  lhsContracting := [2]
  rhsContracting := [0]
  lhsNonContracting := [0, 1]
  rhsNonContracting := [1]
  lhsBatch := []
  rhsBatch := []
  wf := dot_S32x64x4096_S4096x1024_S32x64x1024_2_0_01_1_n_n_wf
def dot_S32x64x1024_S1024x1024_S32x64x1024_2_0_01_1_n_n : DotDims S32x64x1024 S1024x1024 S32x64x1024 where
  lhsContracting := [2]
  rhsContracting := [0]
  lhsNonContracting := [0, 1]
  rhsNonContracting := [1]
  lhsBatch := []
  rhsBatch := []
  wf := dot_S32x64x1024_S1024x1024_S32x64x1024_2_0_01_1_n_n_wf

class Facts : Prop extends Facts₀ where

variable [Facts]
-- ==== Proof.PreNonzero.lean ====
/-
  What the precondition says of the phrase lengths: its last conjunct is `all (phrase_lengths ≠ 0)`, a reduction by
  `and` of the word-by-word comparison with zero, so when the whole predicate is 1 every length word differs from zero.
  (The six conjuncts before it say that the float inputs are finite; the value proof does not use them.)
-/
import proofs.«173400_j9208409882645_2_alg».proof.Defs
import proofs.«173400_j9208409882645_2_alg».proof.Proof.Gen.Pre_finite_inputs
import Idealize.ShloMosaic.Lib.ReduceAll
import Idealize.ShloMosaic.Lib.ValueIdx

noncomputable section

namespace Cert.RegionPool

open Idealize.ShloMosaic Idealize.ShloMosaic.TcCoe Idealize.SL.Sem

/-- A rank-0 shape has one index. -/
instance : Subsingleton Cert.Pre_finite_inputs.S_.Idx := ⟨fun a b => funext fun d => d.elim0⟩

/-- The predicate being 1 makes every phrase length nonzero: the last `and` operand is the `all` of the comparisons
    `length ≠ 0`, and an `all` that is 1 had a 1 at every index. -/
theorem lengths_ne_zero {F : FTy → Type} [FloatOps F] [Cert.Pre_finite_inputs.Facts]
    (a0 : FVec F Cert.Pre_finite_inputs.S32x64x4096 .f32) (a1 : FVec F Cert.Pre_finite_inputs.S32x64x20x1024 .f32)
    (a2 : IVec Cert.Pre_finite_inputs.S32x64 32) (a3 : FVec F Cert.Pre_finite_inputs.S4096x1024 .f32)
    (a4 : FVec F Cert.Pre_finite_inputs.S1024 .f32) (a5 : FVec F Cert.Pre_finite_inputs.S1024x1024 .f32)
    (a6 : FVec F Cert.Pre_finite_inputs.S1024 .f32)
    (h : Cert.Pre_finite_inputs.fn (F := F) a0 a1 a2 a3 a4 a5 a6 = fun _ => 1#1)
    (i : Cert.Pre_finite_inputs.S32x64.Idx) : a2 i ≠ 0#32 := by
  have e := congrFun h ValueIdx.ix0
  unfold Cert.Pre_finite_inputs.fn Cert.Pre_finite_inputs.fn_part1 at e
  dsimp only at e
  have e2 := (IntOp.andi_eq_one.1 e).2
  have e3 := Host.reduce_andi_all _ _ _ _ ValueIdx.ix0 e2 i
  intro h0
  have e4 : IntOp.cmpi .ne (a2 i) 0#32 = 1#1 := e3
  rw [h0] at e4
  exact absurd e4 (by decide)

end Cert.RegionPool

end
-- ==== Proof.Spec.lean ====
/-
  The two results as functions of the argument arrays, index by index, on the extended reals, and the one law
  that joins the kernel's arithmetic to the reference's.

  With `L` the phrase tokens [32, 64, 20, 1024], `N` the phrase lengths [32, 64] (signed words), `W` a weight
  matrix and `β` a bias row:

    pooled b n h   = (Σ p < 20, L b n p h) / N b n
    language b n k = (Σ h < 1024, pooled b n h · Wl h k) + bl k
    visual   b n k = (Σ f < 4096, V b n f · Wv f k) + bv k

  The reference divides the token sum by the length; the kernel multiplies it by the reciprocal `1 / N b n` that
  the surrounding program computed beforehand. On the extended reals a quotient by a NONZERO real is the product
  with its reciprocal for every dividend, the infinities included (`recip_mul`), so the two agree wherever the
  length is not zero; no distributive law and no finiteness of the tokens is used. (At length zero they differ:
  `0 · (1/0) = 0 · ⊤ = 0` against `0 / 0 = ⊥`.)
-/
import Idealize.ShloMosaic.PureOps.Ideal
import Idealize.ShloMosaic.PureOps.IdealRules
import Idealize.ShloMosaic.Lib.ValueIdx

noncomputable section

namespace Cert.RegionPool

open Idealize.ShloMosaic Idealize.ShloMosaic.ValueIdx

/-- A phrase length as an extended real: the signed word, exactly. -/
def len (N : (⟨2, ![32, 64]⟩ : Shape).Idx → BitVec 32) (b : Fin 32) (n : Fin 64) : EReal :=
  (((N (ix2 b n)).toInt : ℝ) : EReal)

/-- The sum of a region's 20 phrase tokens at feature `h`. -/
def tokenSum (L : (⟨4, ![32, 64, 20, 1024]⟩ : Shape).Idx → EReal) (b : Fin 32) (n : Fin 64) (h : Fin 1024) : EReal :=
  ∑ p : Fin 20, L (ix4 b n p h)

/-- The mean-pooled phrase feature: the token sum divided by the region's phrase length. -/
def pooled (L : (⟨4, ![32, 64, 20, 1024]⟩ : Shape).Idx → EReal) (N : (⟨2, ![32, 64]⟩ : Shape).Idx → BitVec 32)
    (b : Fin 32) (n : Fin 64) (h : Fin 1024) : EReal :=
  Ideal.div (tokenSum L b n h) (len N b n)

/-- The language projection of region (b, n) at output feature `k`. -/
def langAt (L : (⟨4, ![32, 64, 20, 1024]⟩ : Shape).Idx → EReal) (N : (⟨2, ![32, 64]⟩ : Shape).Idx → BitVec 32)
    (W : (⟨2, ![1024, 1024]⟩ : Shape).Idx → EReal) (β : (⟨1, ![1024]⟩ : Shape).Idx → EReal)
    (b : Fin 32) (n : Fin 64) (k : Fin 1024) : EReal :=
  (∑ h : Fin 1024, pooled L N b n h * W (ix2 h k)) + β (ix1 k)

/-- The visual projection of region (b, n) at output feature `k`. -/
def visAt (V : (⟨3, ![32, 64, 4096]⟩ : Shape).Idx → EReal) (W : (⟨2, ![4096, 1024]⟩ : Shape).Idx → EReal)
    (β : (⟨1, ![1024]⟩ : Shape).Idx → EReal) (b : Fin 32) (n : Fin 64) (k : Fin 1024) : EReal :=
  (∑ f : Fin 4096, V (ix3 b n f) * W (ix2 f k)) + β (ix1 k)

/-- The language map [32, 64, 1024] as one function of the argument arrays. -/
def langMap (L : (⟨4, ![32, 64, 20, 1024]⟩ : Shape).Idx → EReal) (N : (⟨2, ![32, 64]⟩ : Shape).Idx → BitVec 32)
    (W : (⟨2, ![1024, 1024]⟩ : Shape).Idx → EReal) (β : (⟨1, ![1024]⟩ : Shape).Idx → EReal) :
    (⟨3, ![32, 64, 1024]⟩ : Shape).Idx → EReal :=
  fun i => langAt L N W β (i 0) (i 1) (i 2)

/-- The visual map [32, 64, 1024] as one function of the argument arrays. -/
def visMap (V : (⟨3, ![32, 64, 4096]⟩ : Shape).Idx → EReal) (W : (⟨2, ![4096, 1024]⟩ : Shape).Idx → EReal)
    (β : (⟨1, ![1024]⟩ : Shape).Idx → EReal) : (⟨3, ![32, 64, 1024]⟩ : Shape).Idx → EReal :=
  fun i => visAt V W β (i 0) (i 1) (i 2)

/-- The language result over flattened regions [2048, 1024]: row `64·b + n` is region (b, n). -/
def langFlat (L : (⟨4, ![32, 64, 20, 1024]⟩ : Shape).Idx → EReal) (N : (⟨2, ![32, 64]⟩ : Shape).Idx → BitVec 32)
    (W : (⟨2, ![1024, 1024]⟩ : Shape).Idx → EReal) (β : (⟨1, ![1024]⟩ : Shape).Idx → EReal) :
    (⟨2, ![2048, 1024]⟩ : Shape).Idx → EReal :=
  fun j => langAt L N W β ⟨(j 0).val / 64, by have h : (j 0).val < 2048 := (j 0).isLt; omega⟩
    ⟨(j 0).val % 64, Nat.mod_lt _ (by decide)⟩ (j 1)

/-- The visual result over flattened regions [2048, 1024]. -/
def visFlat (V : (⟨3, ![32, 64, 4096]⟩ : Shape).Idx → EReal) (W : (⟨2, ![4096, 1024]⟩ : Shape).Idx → EReal)
    (β : (⟨1, ![1024]⟩ : Shape).Idx → EReal) : (⟨2, ![2048, 1024]⟩ : Shape).Idx → EReal :=
  fun j => visAt V W β ⟨(j 0).val / 64, by have h : (j 0).val < 2048 := (j 0).isLt; omega⟩
    ⟨(j 0).val % 64, Nat.mod_lt _ (by decide)⟩ (j 1)

/-- At row `64·b + n`, column `k`, the flattened language result is region (b, n)'s. -/
theorem langFlat_at (L : (⟨4, ![32, 64, 20, 1024]⟩ : Shape).Idx → EReal) (N : (⟨2, ![32, 64]⟩ : Shape).Idx → BitVec 32)
    (W : (⟨2, ![1024, 1024]⟩ : Shape).Idx → EReal) (β : (⟨1, ![1024]⟩ : Shape).Idx → EReal)
    (j : (⟨2, ![2048, 1024]⟩ : Shape).Idx) (b : Fin 32) (n : Fin 64) (k : Fin 1024)
    (h0 : (j 0).val = 64 * b.val + n.val) (h1 : (j 1).val = k.val) :
    langFlat L N W β j = langAt L N W β b n k := by
  have hn := n.isLt
  have eb : (j 0).val / 64 = b.val := by omega
  have en : (j 0).val % 64 = n.val := by omega
  unfold langFlat
  congr 1
  · exact Fin.ext eb
  · exact Fin.ext en
  · exact Fin.ext h1

/-- At row `64·b + n`, column `k`, the flattened visual result is region (b, n)'s. -/
theorem visFlat_at (V : (⟨3, ![32, 64, 4096]⟩ : Shape).Idx → EReal) (W : (⟨2, ![4096, 1024]⟩ : Shape).Idx → EReal)
    (β : (⟨1, ![1024]⟩ : Shape).Idx → EReal)
    (j : (⟨2, ![2048, 1024]⟩ : Shape).Idx) (b : Fin 32) (n : Fin 64) (k : Fin 1024)
    (h0 : (j 0).val = 64 * b.val + n.val) (h1 : (j 1).val = k.val) :
    visFlat V W β j = visAt V W β b n k := by
  have hn := n.isLt
  have eb : (j 0).val / 64 = b.val := by omega
  have en : (j 0).val % 64 = n.val := by omega
  unfold visFlat
  congr 1
  · exact Fin.ext eb
  · exact Fin.ext en
  · exact Fin.ext h1

/-- The f32 pattern of `1.0` is the extended real `1`. -/
theorem ofBits_one_f32 : Ideal.ofBits .f32 0x3F800000#32 = 1 :=
  IdealRules.sign_bit.ideal_onePat .f32

/-- A nonzero signed word is a nonzero real. -/
theorem toInt_cast_ne_zero {w : BitVec 32} (hw : w ≠ 0#32) : ((w.toInt : ℝ)) ≠ 0 := by
  have h : w.toInt ≠ (0#32 : BitVec 32).toInt := BitVec.toInt_ne.mpr hw
  rw [BitVec.toInt_zero] at h
  exact_mod_cast h

/-- THE LAW: the product with the reciprocal of a nonzero length is the quotient by it, for EVERY extended-real
    dividend (both are `s · (1/y)`, the reciprocal a real). -/
theorem recip_mul (s : EReal) {y : ℝ} (hy : y ≠ 0) :
    s * Ideal.div (Ideal.ofBits .f32 0x3F800000#32) (y : EReal) = Ideal.div s (y : EReal) := by
  rw [Ideal.div_coe hy, Ideal.div_coe hy, ofBits_one_f32, one_mul]

end Cert.RegionPool

end
-- ==== Proof.RefIsSpec.lean ====
/-
  The reference computes the specification. Read one operation at a time, its language result at (b, n, k) is
  `(Σ h, ((0 + Σ p, L b n p h) / N b n) · Wl h k) + bl k` and its visual result `(Σ f, V b n f · Wv f k) + bv k`: the
  reduction's initial value is the zero pattern, the two broadcasts of a bias read it at `k`, and the length is
  broadcast along the feature axis, so every feature of a region is divided by that region's length.
-/
import proofs.«173400_j9208409882645_2_alg».proof.Proof.Gen.ReferenceIdeal.Read
import proofs.«173400_j9208409882645_2_alg».proof.Proof.Spec
import Idealize.ShloMosaic.PureOps.Ideal.Laws

noncomputable section

namespace Cert.RegionPool

open Idealize.ShloMosaic Idealize.ShloMosaic.TcCoe Idealize.ShloMosaic.ValueIdx
open Cert.ReferenceIdeal Cert.ReferenceIdeal.Read

/-- The reference's quotient stage at (b, n, h) is the pooled feature: the token sum from zero, divided by the
    region's length as a real. -/
theorem ref_pooled (x1 : (⟨S32x64x20x1024, .f32⟩ : BufTy).Contents (Elt Ideal)) (x2 : (⟨S32x64, .i32⟩ : BufTy).Contents (Elt Ideal))
    (b : Fin 32) (n : Fin 64) (h : Fin 1024) :
    val_main_v4 (F := Ideal) x1 x2 (ix3 b n h) = pooled x1 x2 b n h := by
  rw [val_main_v4_apply, val_main_v0_apply, val_main_cst_apply, val_main_v3_apply, val_main_v2_apply, val_main_v1_apply]
  have e1 : ∀ p : Fin 20, idx_main_v0 (ix3 b n h) p = ix4 b n p h := fun p => funext fun a => Fin.ext (by
    match a with | ⟨0, _⟩ => rfl | ⟨1, _⟩ => rfl | ⟨2, _⟩ => rfl | ⟨3, _⟩ => rfl)
  have e2 : idx_main_v1 (idx_main_v3 (ix3 b n h)) = ix2 b n := funext fun a => Fin.ext (by
    match a with | ⟨0, _⟩ => rfl | ⟨1, _⟩ => rfl)
  simp only [e1, e2, Ideal.hostDivf_def, Ideal.ofBits_def, Ideal.ofBits_zero_f32, zero_add]
  rfl

/-- The reference's language result is the specification's language map. -/
theorem ref_lang (x1 : (⟨S32x64x20x1024, .f32⟩ : BufTy).Contents (Elt Ideal)) (x2 : (⟨S32x64, .i32⟩ : BufTy).Contents (Elt Ideal))
    (x5 : (⟨S1024x1024, .f32⟩ : BufTy).Contents (Elt Ideal)) (x6 : (⟨S1024, .f32⟩ : BufTy).Contents (Elt Ideal)) :
    val_main_v12 (F := Ideal) x1 x2 x5 x6 = langMap x1 x2 x5 x6 := by
  funext i
  obtain ⟨b, n, k, rfl⟩ : ∃ (b : Fin 32) (n : Fin 64) (k : Fin 1024), i = ix3 b n k := ⟨i 0, i 1, i 2, eq_ix3 i⟩
  rw [val_main_v12_apply, val_main_v9_apply, val_main_v11_apply, val_main_v10_apply]
  have el : ∀ h : Fin 1024, lidx_main_v9 (ix3 b n k) h = ix3 b n h := fun h => funext fun a => Fin.ext (by
    match a with | ⟨0, _⟩ => rfl | ⟨1, _⟩ => rfl | ⟨2, _⟩ => rfl)
  have er : ∀ h : Fin 1024, ridx_main_v9 (ix3 b n k) h = ix2 h k := fun h => funext fun a => Fin.ext (by
    match a with | ⟨0, _⟩ => rfl | ⟨1, _⟩ => rfl)
  have eb : idx_main_v10 (idx_main_v11 (ix3 b n k)) = ix1 k := funext fun a => Fin.ext (by
    match a with | ⟨0, _⟩ => rfl)
  simp only [el, er, eb, ref_pooled, Ideal.addf_def]
  rfl

/-- The reference's visual result is the specification's visual map. -/
theorem ref_vis (x0 : (⟨S32x64x4096, .f32⟩ : BufTy).Contents (Elt Ideal)) (x3 : (⟨S4096x1024, .f32⟩ : BufTy).Contents (Elt Ideal))
    (x4 : (⟨S1024, .f32⟩ : BufTy).Contents (Elt Ideal)) :
    val_main_v8 (F := Ideal) x0 x3 x4 = visMap x0 x3 x4 := by
  funext i
  obtain ⟨b, n, k, rfl⟩ : ∃ (b : Fin 32) (n : Fin 64) (k : Fin 1024), i = ix3 b n k := ⟨i 0, i 1, i 2, eq_ix3 i⟩
  rw [val_main_v8_apply, val_main_v5_apply, val_main_v7_apply, val_main_v6_apply]
  have el : ∀ f : Fin 4096, lidx_main_v5 (ix3 b n k) f = ix3 b n f := fun f => funext fun a => Fin.ext (by
    match a with | ⟨0, _⟩ => rfl | ⟨1, _⟩ => rfl | ⟨2, _⟩ => rfl)
  have er : ∀ f : Fin 4096, ridx_main_v5 (ix3 b n k) f = ix2 f k := fun f => funext fun a => Fin.ext (by
    match a with | ⟨0, _⟩ => rfl | ⟨1, _⟩ => rfl)
  have eb : idx_main_v6 (idx_main_v7 (ix3 b n k)) = ix1 k := funext fun a => Fin.ext (by
    match a with | ⟨0, _⟩ => rfl)
  simp only [el, er, eb, Ideal.addf_def]
  rfl

end Cert.RegionPool

end
-- ==== Proof.KernelPayload.lean ====
/-
  The kernel body's two stored values, read at an index of the [64, 1024] output block, on the extended reals.

  For the row tile's token block `x` [64, 20, 1024], reciprocal-length column `c` [64, 1], weight `w` [1024, 1024]
  and bias row `β` [1, 1024], the language value at (r, k) is

      (Σ h < 1024, ((Σ p < 20, x r p h) · c r 0) · w h k) + β 0 k :

  the lane reduction over the token axis is a plain sum, the column is broadcast along the features and the bias row
  along the rows, the rounding to bf16 before the matrix unit is the identity, and the matrix product into a zero
  accumulator is the sum over the contracted axis. The visual value is `(Σ f < 4096, v r f · w f k) + β 0 k`.
-/
import proofs.«173400_j9208409882645_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.RegionPool.Body

open Idealize.ShloMosaic Idealize.ShloMosaic.ValueIdx
open Cert.KernelIdeal Cert.KernelIdeal.Gen

/-- The language projection's contraction [64, 1024] × [1024, 1024]. -/
abbrev DL := dot_S64x1024_S1024x1024_S64x1024_1_0_0_1_n_n
/-- The visual projection's contraction [64, 4096] × [4096, 1024]. -/
abbrev DV := dot_S64x4096_S4096x1024_S64x1024_1_0_0_1_n_n

/-- The lane reduction over the token axis, at (r, h): the sum of the 20 tokens. -/
theorem tokens_apply (v : FVec Ideal S64x20x1024 .f32) (r : Fin 64) (h : Fin 1024) :
    multiReduction .add [1] S64x1024 v 0x00000000#32 reduces_S64x20x1024_S64x1024 (.inl rfl) rfl (ix2 r h)
      = ∑ p : Fin 20, v (ix3 r p h) := by
  refine (Ideal.multiReduction_add_single v 0x00000000#32 reduces_S64x20x1024_S64x1024 (.inl rfl) rfl (ix2 r h)).trans ?_
  exact Finset.sum_congr rfl fun p _ => congrArg v (funext fun a => Fin.ext (by
    match a with | ⟨0, _⟩ => rfl | ⟨1, _⟩ => rfl | ⟨2, _⟩ => rfl))

/-- A [64, 1] column broadcast along the features reads its row's one entry. -/
theorem col_apply {α : Type} (v : S64x1.Idx → α) (r : Fin 64) (h : Fin 1024) :
    broadcastTo S64x1024 v broadcasts_S64x1_S64x1024 (ix2 r h) = v (ix2 r (0 : Fin 1)) :=
  broadcastTo_apply v broadcasts_S64x1_S64x1024 (ix2 r h) (ix2 r (0 : Fin 1)) (fun a => match a with
    | ⟨0, _⟩ => by show r.val = if (64 : Nat) = 1 then 0 else r.val; rw [if_neg (by decide)]
    | ⟨1, _⟩ => by show 0 = if (1 : Nat) = 1 then 0 else h.val; rw [if_pos rfl])

/-- A [1, 1024] row broadcast along the rows reads its column's one entry. -/
theorem row_apply {α : Type} (v : S1x1024.Idx → α) (r : Fin 64) (k : Fin 1024) :
    broadcastTo S64x1024 v broadcasts_S1x1024_S64x1024 (ix2 r k) = v (ix2 (0 : Fin 1) k) :=
  broadcastTo_apply v broadcasts_S1x1024_S64x1024 (ix2 r k) (ix2 (0 : Fin 1) k) (fun a => match a with
    | ⟨0, _⟩ => by show 0 = if (1 : Nat) = 1 then 0 else r.val; rw [if_pos rfl]
    | ⟨1, _⟩ => by show k.val = if (1024 : Nat) = 1 then 0 else k.val; rw [if_neg (by decide)])

theorem lhsL_0 (j : S64x1024.Idx) (q : DL.contr.Idx) : (DL.lhsIdx j q 0).val = (j 0).val := by
  unfold DotDims.lhsIdx
  rw [dif_neg (show ¬(0 : Fin S64x1024.rank) ∈ DL.lhsBatch by decide), dif_pos (show (0 : Fin S64x1024.rank) ∈ DL.lhsNonContracting by decide)]
  rfl
theorem rhsL_1 (j : S64x1024.Idx) (q : DL.contr.Idx) : (DL.rhsIdx j q 1).val = (j 1).val := by
  unfold DotDims.rhsIdx
  rw [dif_neg (show ¬(1 : Fin S1024x1024.rank) ∈ DL.rhsBatch by decide), dif_pos (show (1 : Fin S1024x1024.rank) ∈ DL.rhsNonContracting by decide)]
  rfl
theorem lhsV_0 (j : S64x1024.Idx) (q : DV.contr.Idx) : (DV.lhsIdx j q 0).val = (j 0).val := by
  unfold DotDims.lhsIdx
  rw [dif_neg (show ¬(0 : Fin S64x4096.rank) ∈ DV.lhsBatch by decide), dif_pos (show (0 : Fin S64x4096.rank) ∈ DV.lhsNonContracting by decide)]
  rfl
theorem rhsV_1 (j : S64x1024.Idx) (q : DV.contr.Idx) : (DV.rhsIdx j q 1).val = (j 1).val := by
  unfold DotDims.rhsIdx
  rw [dif_neg (show ¬(1 : Fin S4096x1024.rank) ∈ DV.rhsBatch by decide), dif_pos (show (1 : Fin S4096x1024.rank) ∈ DV.rhsNonContracting by decide)]
  rfl

/-- The language matrix product into the zero accumulator, at (r, k): the sum over the 1024 contracted features. -/
theorem matmulL_apply (a : FVec Ideal S64x1024 .bf16) (w : FVec Ideal S1024x1024 .bf16) (r : Fin 64) (k : Fin 1024) :
    matmul DL none a w (constant (F := Ideal) S64x1024 .f32 0x00000000#32) (ix2 r k) = ∑ h : Fin 1024, a (ix2 r h) * w (ix2 h k) := by
  refine (Ideal.matmul_constant_zero_apply DL none a w (ix2 r k)).trans ?_
  rw [← Equiv.sum_comp (contrEquiv1 DL 1024 rfl rfl).symm]
  refine Finset.sum_congr rfl fun h _ => ?_
  have hk := contrEquiv1_symm_val DL 1024 rfl rfl h
  have el : DL.lhsIdx (ix2 r k) ((contrEquiv1 DL 1024 rfl rfl).symm h) = ix2 r h := funext fun a => Fin.ext (by
    match a with
    | ⟨0, _⟩ => exact lhsL_0 _ _
    | ⟨1, _⟩ => exact (DL.lhsIdx_val_of_single rfl _ _).trans hk)
  have er : DL.rhsIdx (ix2 r k) ((contrEquiv1 DL 1024 rfl rfl).symm h) = ix2 h k := funext fun a => Fin.ext (by
    match a with
    | ⟨0, _⟩ => exact (DL.rhsIdx_val_of_single rfl _ _).trans hk
    | ⟨1, _⟩ => exact rhsL_1 _ _)
  rw [el, er]

/-- The visual matrix product into the zero accumulator, at (r, k): the sum over the 4096 contracted features. -/
theorem matmulV_apply (a : FVec Ideal S64x4096 .bf16) (w : FVec Ideal S4096x1024 .bf16) (r : Fin 64) (k : Fin 1024) :
    matmul DV none a w (constant (F := Ideal) S64x1024 .f32 0x00000000#32) (ix2 r k) = ∑ f : Fin 4096, a (ix2 r f) * w (ix2 f k) := by
  refine (Ideal.matmul_constant_zero_apply DV none a w (ix2 r k)).trans ?_
  rw [← Equiv.sum_comp (contrEquiv1 DV 4096 rfl rfl).symm]
  refine Finset.sum_congr rfl fun f _ => ?_
  have hk := contrEquiv1_symm_val DV 4096 rfl rfl f
  have el : DV.lhsIdx (ix2 r k) ((contrEquiv1 DV 4096 rfl rfl).symm f) = ix2 r f := funext fun a => Fin.ext (by
    match a with
    | ⟨0, _⟩ => exact lhsV_0 _ _
    | ⟨1, _⟩ => exact (DV.lhsIdx_val_of_single rfl _ _).trans hk)
  have er : DV.rhsIdx (ix2 r k) ((contrEquiv1 DV 4096 rfl rfl).symm f) = ix2 f k := funext fun a => Fin.ext (by
    match a with
    | ⟨0, _⟩ => exact (DV.rhsIdx_val_of_single rfl _ _).trans hk
    | ⟨1, _⟩ => exact rhsV_1 _ _)
  rw [el, er]

/-- THE LANGUAGE VALUE the body stores, at (r, k). -/
theorem pay_lang (x0 : Vec Ideal S64x20x1024 .f32) (x2 : Vec Ideal S64x1 .f32) (x4 : Vec Ideal S1024x1024 .bf16)
    (x6 : Vec Ideal S1x1024 .f32) (r : Fin 64) (k : Fin 1024) :
    k0_pay1 (F := Ideal) x0 x2 x4 x6 (ix2 r k)
      = (∑ h : Fin 1024, ((∑ p : Fin 20, x0 (ix3 r p h)) * x2 (ix2 r (0 : Fin 1))) * x4 (ix2 h k)) + x6 (ix2 (0 : Fin 1) k) := by
  unfold k0_pay1
  simp only [shapeCast_self]
  refine (addf_apply _ _ _).trans ?_
  refine congrArg₂ (· + ·) ?_ (row_apply x6 r k)
  refine (matmulL_apply _ _ r k).trans ?_
  refine Finset.sum_congr rfl fun h _ => congrArg (· * _) ?_
  refine (truncf_apply (ψ := .bf16) _ bitsLt_bf16_f32 (ix2 r h)).trans ?_
  refine (mulf_apply _ _ _).trans ?_
  exact congrArg₂ (· * ·) (tokens_apply x0 r h) (col_apply x2 r h)

/-- THE VISUAL VALUE the body stores, at (r, k). -/
theorem pay_vis (x1 : Vec Ideal S64x4096 .f32) (x3 : Vec Ideal S4096x1024 .bf16) (x5 : Vec Ideal S1x1024 .f32)
    (r : Fin 64) (k : Fin 1024) :
    k0_pay2 (F := Ideal) x1 x3 x5 (ix2 r k) = (∑ f : Fin 4096, x1 (ix2 r f) * x3 (ix2 f k)) + x5 (ix2 (0 : Fin 1) k) := by
  unfold k0_pay2
  simp only [shapeCast_self]
  refine (addf_apply _ _ _).trans ?_
  refine congrArg₂ (· + ·) ?_ (row_apply x5 r k)
  refine (matmulV_apply _ _ r k).trans ?_
  exact Finset.sum_congr rfl fun f _ => congrArg (· * _) (truncf_apply (ψ := .bf16) x1 bitsLt_bf16_f32 (ix2 r f))

end Cert.RegionPool.Body

end
-- ==== Proof.KernelPoint.lean ====
/-
  One grid point's two stored blocks against the specification, over arbitrary blocks.

  Suppose the row tile's blocks hold, at local row `n`, the data of region (b, n): the token block the region's tokens,
  the reciprocal column `1 / length(b, n)`, the weight and bias blocks the weights and the bias. Then the language
  value stored at (n, k) is `Σ h, ((Σ p, L b n p h) · (1 / length)) · W h k + β k`, and since the length is not zero the
  product with its reciprocal is the quotient by it, so this is the specification's language projection of region
  (b, n) at `k`. The visual value is the visual projection as it stands.
-/
import proofs.«173400_j9208409882645_2_alg».proof.Proof.KernelPayload
import proofs.«173400_j9208409882645_2_alg».proof.Proof.Spec

noncomputable section

namespace Cert.RegionPool.Body

open Idealize.ShloMosaic Idealize.ShloMosaic.ValueIdx
open Cert.KernelIdeal Cert.KernelIdeal.Gen

/-- The language block of row tile `b` is the specification's language projection of its 64 regions. -/
theorem point_lang (x0 : Vec Ideal S64x20x1024 .f32) (x2 : Vec Ideal S64x1 .f32) (x4 : Vec Ideal S1024x1024 .bf16)
    (x6 : Vec Ideal S1x1024 .f32)
    (L : (⟨4, ![32, 64, 20, 1024]⟩ : Shape).Idx → EReal) (N : (⟨2, ![32, 64]⟩ : Shape).Idx → BitVec 32)
    (W : (⟨2, ![1024, 1024]⟩ : Shape).Idx → EReal) (β : (⟨1, ![1024]⟩ : Shape).Idx → EReal) (b : Fin 32)
    (hN : ∀ n : Fin 64, N (ix2 b n) ≠ 0#32)
    (e0 : ∀ (n : Fin 64) (p : Fin 20) (h : Fin 1024), x0 (ix3 n p h) = L (ix4 b n p h))
    (e2 : ∀ n : Fin 64, x2 (ix2 n (0 : Fin 1)) = Ideal.div (Ideal.ofBits .f32 0x3F800000#32) (len N b n))
    (e4 : ∀ h k : Fin 1024, x4 (ix2 h k) = W (ix2 h k))
    (e6 : ∀ k : Fin 1024, x6 (ix2 (0 : Fin 1) k) = β (ix1 k))
    (y : S64x1024.Idx) :
    k0_pay1 (F := Ideal) x0 x2 x4 x6 y = langAt L N W β b (y 0) (y 1) := by
  obtain ⟨n, k, rfl⟩ : ∃ (n : Fin 64) (k : Fin 1024), y = ix2 n k := ⟨y 0, y 1, eq_ix2 y⟩
  refine (pay_lang x0 x2 x4 x6 n k).trans ?_
  show _ = langAt L N W β b n k
  unfold langAt pooled tokenSum
  refine congrArg₂ (· + ·) (Finset.sum_congr rfl fun h _ => ?_) (e6 k)
  rw [e2, e4]
  refine congrArg (· * _) ?_
  rw [show (∑ p : Fin 20, x0 (ix3 n p h)) = ∑ p : Fin 20, L (ix4 b n p h) from Finset.sum_congr rfl fun p _ => e0 n p h]
  exact recip_mul _ (toInt_cast_ne_zero (hN n))

/-- The visual block of row tile `b` is the specification's visual projection of its 64 regions. -/
theorem point_vis (x1 : Vec Ideal S64x4096 .f32) (x3 : Vec Ideal S4096x1024 .bf16) (x5 : Vec Ideal S1x1024 .f32)
    (V : (⟨3, ![32, 64, 4096]⟩ : Shape).Idx → EReal) (W : (⟨2, ![4096, 1024]⟩ : Shape).Idx → EReal)
    (β : (⟨1, ![1024]⟩ : Shape).Idx → EReal) (b : Fin 32)
    (e1 : ∀ (n : Fin 64) (f : Fin 4096), x1 (ix2 n f) = V (ix3 b n f))
    (e3 : ∀ (f : Fin 4096) (k : Fin 1024), x3 (ix2 f k) = W (ix2 f k))
    (e5 : ∀ k : Fin 1024, x5 (ix2 (0 : Fin 1) k) = β (ix1 k))
    (y : S64x1024.Idx) :
    k0_pay2 (F := Ideal) x1 x3 x5 y = visAt V W β b (y 0) (y 1) := by
  obtain ⟨n, k, rfl⟩ : ∃ (n : Fin 64) (k : Fin 1024), y = ix2 n k := ⟨y 0, y 1, eq_ix2 y⟩
  refine (pay_vis x1 x3 x5 n k).trans ?_
  show _ = visAt V W β b n k
  unfold visAt
  refine congrArg₂ (· + ·) (Finset.sum_congr rfl fun f _ => ?_) (e5 k)
  rw [e1, e3]

end Cert.RegionPool.Body

end
-- ==== Proof.KernelEntry.lean ====
/-
  What the region finds in the arrays its windows stage, read at an index, as terms of the launch arguments.

  The surrounding program flattens the region axes: row `64·b + n` of the [2048, …] arrays is region (b, n) of the
  [32, 64, …] arguments (a reshape keeps the row-major position). The reciprocal column at that row is
  `1 / length(b, n)`, the quotient of the constant 1 by the length converted to a real. The two weight matrices are
  the arguments themselves (their rounding to bf16 is the identity on the extended reals), and each bias row [1, 1024]
  is the bias vector.
-/
import proofs.«173400_j9208409882645_2_alg».proof.Proof.Gen.KernelIdeal.Frame
import Idealize.ShloMosaic.Lib.StableHlo.Run
import Idealize.ShloMosaic.Lib.ValueIdx
import Idealize.ShloMosaic.Lib.Pipeline.Value

noncomputable section

namespace Cert.RegionPool.Entry

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ)

/-- The flattened token array at row `64·b + n`, token `p`, feature `h` is the token of region (b, n). -/
theorem tokens (c : Dev nD) (j : S2048x20x1024.Idx) (b : Fin 32) (n : Fin 64) (p : Fin 20) (h : Fin 1024)
    (h0 : (j 0).val = 64 * b.val + n.val) (h1 : (j 1).val = p.val) (h2 : (j 2).val = h.val) :
    V m c main_v0 j = m ((c : Thread nD τ).loc main_arg1) (ix4 b n p h) := by
  have e : (V m c main_v0 : S2048x20x1024.Idx → EReal)
      = shapeCast S2048x20x1024 (m ((c : Thread nD τ).loc main_arg1)) shapeCasts_S32x64x20x1024_S2048x20x1024 := by
    show StableHlo.after hostOps0 (fun b => m (c, b)) (Proc.devRef .tc main_v0) = _
    after_results
    rfl
  rw [e]
  refine shapeCast_apply _ _ j (ix4 b n p h) ?_
  rw [Shape.rowMajor_val_four, Shape.rowMajor_val_three]
  show ((b.val * 64 + n.val) * 20 + p.val) * 1024 + h.val = ((j 0).val * 20 + (j 1).val) * 1024 + (j 2).val
  rw [h0, h1, h2]; ring

/-- The flattened vision array at row `64·b + n`, feature `f` is the vision feature of region (b, n). -/
theorem vision (c : Dev nD) (j : S2048x4096.Idx) (b : Fin 32) (n : Fin 64) (f : Fin 4096)
    (h0 : (j 0).val = 64 * b.val + n.val) (h1 : (j 1).val = f.val) :
    V m c main_v1 j = m ((c : Thread nD τ).loc main_arg0) (ix3 b n f) := by
  have e : (V m c main_v1 : S2048x4096.Idx → EReal)
      = shapeCast S2048x4096 (m ((c : Thread nD τ).loc main_arg0)) shapeCasts_S32x64x4096_S2048x4096 := by
    show StableHlo.after hostOps0 (fun b => m (c, b)) (Proc.devRef .tc main_v1) = _
    after_results
    rfl
  rw [e]
  refine shapeCast_apply _ _ j (ix3 b n f) ?_
  rw [Shape.rowMajor_val_three, Shape.rowMajor_val_two]
  show (b.val * 64 + n.val) * 4096 + f.val = (j 0).val * 4096 + (j 1).val
  rw [h0, h1]; ring

/-- The reciprocal column at row `64·b + n` is the constant 1 divided by the length of region (b, n). -/
theorem recip (c : Dev nD) (j : S2048x1.Idx) (b : Fin 32) (n : Fin 64) (h0 : (j 0).val = 64 * b.val + n.val) :
    V m c main_v5 j
      = Ideal.div (Ideal.ofBits .f32 0x3F800000#32) ((((m ((c : Thread nD τ).loc main_arg2) (ix2 b n)).toInt : ℝ)) : EReal) := by
  have e : (V m c main_v5 : S2048x1.Idx → EReal)
      = Host.divf (F := Ideal) (broadcastInDim S2048x1 ![] bcast_S_S2048x1 (constant (F := Ideal) S_ .f32 0x3F800000#32))
          (sitofp .f32 (shapeCast S2048x1 (m ((c : Thread nD τ).loc main_arg2)) shapeCasts_S32x64_S2048x1)) := by
    show StableHlo.after hostOps0 (fun b => m (c, b)) (Proc.devRef .tc main_v5) = _
    after_results
    rfl
  rw [e]
  have hj : (j 1).val < 1 := (j 1).isLt
  have es : shapeCast S2048x1 (m ((c : Thread nD τ).loc main_arg2)) shapeCasts_S32x64_S2048x1 j
      = m ((c : Thread nD τ).loc main_arg2) (ix2 b n) := by
    refine shapeCast_apply _ _ j (ix2 b n) ?_
    rw [Shape.rowMajor_val_two, Shape.rowMajor_val_two]
    show b.val * 64 + n.val = (j 0).val * 1 + (j 1).val
    rw [h0]; omega
  show Ideal.div (Ideal.ofBits .f32 0x3F800000#32)
      ((((shapeCast S2048x1 (m ((c : Thread nD τ).loc main_arg2)) shapeCasts_S32x64_S2048x1 j).toInt : ℝ)) : EReal) = _
  rw [es]

/-- The visual weight as staged is the argument. -/
theorem weightV (c : Dev nD) (j : S4096x1024.Idx) : V m c main_v6 j = m ((c : Thread nD τ).loc main_arg3) j := by
  have e : (V m c main_v6 : S4096x1024.Idx → EReal)
      = truncf (F := Ideal) .bf16 (m ((c : Thread nD τ).loc main_arg3)) bitsLt_bf16_f32 := by
    show StableHlo.after hostOps0 (fun b => m (c, b)) (Proc.devRef .tc main_v6) = _
    after_results
  rw [e]; rfl

/-- The language weight as staged is the argument. -/
theorem weightL (c : Dev nD) (j : S1024x1024.Idx) : V m c main_v7 j = m ((c : Thread nD τ).loc main_arg5) j := by
  have e : (V m c main_v7 : S1024x1024.Idx → EReal)
      = truncf (F := Ideal) .bf16 (m ((c : Thread nD τ).loc main_arg5)) bitsLt_bf16_f32 := by
    show StableHlo.after hostOps0 (fun b => m (c, b)) (Proc.devRef .tc main_v7) = _
    after_results
  rw [e]; rfl

/-- The visual bias row at column `k` is the bias vector at `k`. -/
theorem biasV (c : Dev nD) (j : S1x1024.Idx) (k : Fin 1024) (h1 : (j 1).val = k.val) :
    V m c main_v8 j = m ((c : Thread nD τ).loc main_arg4) (ix1 k) := by
  have e : (V m c main_v8 : S1x1024.Idx → EReal)
      = shapeCast S1x1024 (m ((c : Thread nD τ).loc main_arg4)) shapeCasts_S1024_S1x1024 := by
    show StableHlo.after hostOps0 (fun b => m (c, b)) (Proc.devRef .tc main_v8) = _
    after_results
    rfl
  rw [e]
  have hj : (j 0).val < 1 := (j 0).isLt
  refine shapeCast_apply _ _ j (ix1 k) ?_
  rw [Shape.rowMajor_val_one, Shape.rowMajor_val_two]
  show k.val = (j 0).val * 1024 + (j 1).val
  rw [h1]; omega

/-- The language bias row at column `k` is the bias vector at `k`. -/
theorem biasL (c : Dev nD) (j : S1x1024.Idx) (k : Fin 1024) (h1 : (j 1).val = k.val) :
    V m c main_v9 j = m ((c : Thread nD τ).loc main_arg6) (ix1 k) := by
  have e : (V m c main_v9 : S1x1024.Idx → EReal)
      = shapeCast S1x1024 (m ((c : Thread nD τ).loc main_arg6)) shapeCasts_S1024_S1x1024 := by
    show StableHlo.after hostOps0 (fun b => m (c, b)) (Proc.devRef .tc main_v9) = _
    after_results
    rfl
  rw [e]
  have hj : (j 0).val < 1 := (j 0).isLt
  refine shapeCast_apply _ _ j (ix1 k) ?_
  rw [Shape.rowMajor_val_one, Shape.rowMajor_val_two]
  show k.val = (j 0).val * 1024 + (j 1).val
  rw [h1]; omega

end Cert.RegionPool.Entry

end
-- ==== Proof.KernelBlocks.lean ====
/-
  From one point's block to the whole array, for the two output windows.

  Grid point `t` stages rows `64·t … 64·t + 63` of the flattened token, vision and reciprocal arrays and of both
  outputs, and the whole of the two weights and the two bias rows (their block index is 0 at every point). So local
  row `n` of point `t` is region (t, n), what the point writes back is its block of the flattened specification,
  and since the 32 blocks of 64 rows tile the 2048 rows, each output array ends holding the flattened specification.
-/
import proofs.«173400_j9208409882645_2_alg».proof.Proof.Gen.KernelIdeal.Frame
import proofs.«173400_j9208409882645_2_alg».proof.Proof.KernelPoint
import proofs.«173400_j9208409882645_2_alg».proof.Proof.KernelEntry
import Idealize.ShloMosaic.Lib.Pipeline.Value

set_option maxRecDepth 16384

noncomputable section

namespace Cert.RegionPool.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- A point is one of 32. -/
theorem point_lt (t : Fin cfg0.N) : t.val < 32 := Nat.lt_of_lt_of_eq t.isLt N_0

/-! ## The printed index maps, decided over the 32 points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
/-- Every row tile is some point's. -/
theorem onto7 : ∀ q : Fin 32, ∃ t : Fin cfg0.N, win0_7.index t = ![q.val, 0] :=
  (by decide +kernel : ∀ q : Fin 32, ∃ t : Fin grid0.N, win0_7.index t = ![q.val, 0])
theorem onto8 : ∀ q : Fin 32, ∃ t : Fin cfg0.N, win0_8.index t = ![q.val, 0] :=
  (by decide +kernel : ∀ q : Fin 32, ∃ t : Fin grid0.N, win0_8.index t = ![q.val, 0])

/-! ## Each input block, read through its window -/

/-- The token block of point `t` at local (n, p, h) is the token of region (t, n). -/
theorem blk_tokens (c : Dev nD) (t : Fin cfg0.N) (n : Fin 64) (p : Fin 20) (h : Fin 1024) :
    iblk m c 0 t (ix3 n p h) = m ((c : Thread nD τ).loc main_arg1) (ix4 ⟨t.val, point_lt t⟩ n p h) := by
  obtain ⟨i0, i1, i2⟩ := idx0 t
  show V m c main_v0 (((cfg0.win 0).blk t).view.emb (ix3 n p h)) = _
  refine Entry.tokens m c _ ⟨t.val, point_lt t⟩ n p h ?_ ?_ ?_
  · show win0_0.index t (0 : Fin 3) * 64 + 1 * n.val = 64 * t.val + n.val; rw [i0]; omega
  · show win0_0.index t (1 : Fin 3) * 20 + 1 * p.val = p.val; rw [i1]; omega
  · show win0_0.index t (2 : Fin 3) * 1024 + 1 * h.val = h.val; rw [i2]; omega

/-- The vision block of point `t` at local (n, f) is the vision feature of region (t, n). -/
theorem blk_vision (c : Dev nD) (t : Fin cfg0.N) (n : Fin 64) (f : Fin 4096) :
    iblk m c 1 t (ix2 n f) = m ((c : Thread nD τ).loc main_arg0) (ix3 ⟨t.val, point_lt t⟩ n f) := by
  obtain ⟨i0, i1⟩ := idx1 t
  show V m c main_v1 (((cfg0.win 1).blk t).view.emb (ix2 n f)) = _
  refine Entry.vision m c _ ⟨t.val, point_lt t⟩ n f ?_ ?_
  · show win0_1.index t (0 : Fin 2) * 64 + 1 * n.val = 64 * t.val + n.val; rw [i0]; omega
  · show win0_1.index t (1 : Fin 2) * 4096 + 1 * f.val = f.val; rw [i1]; omega

/-- The reciprocal block of point `t` at local row `n` is `1 / length(t, n)`. -/
theorem blk_recip (c : Dev nD) (t : Fin cfg0.N) (n : Fin 64) :
    iblk m c 2 t (ix2 n (0 : Fin 1))
      = Ideal.div (Ideal.ofBits .f32 0x3F800000#32) (len (m ((c : Thread nD τ).loc main_arg2)) ⟨t.val, point_lt t⟩ n) := by
  obtain ⟨i0, i1⟩ := idx2 t
  show V m c main_v5 (((cfg0.win 2).blk t).view.emb (ix2 n (0 : Fin 1))) = _
  refine Entry.recip m c _ ⟨t.val, point_lt t⟩ n ?_
  show win0_2.index t (0 : Fin 2) * 64 + 1 * n.val = 64 * t.val + n.val; rw [i0]; omega

/-- The visual weight block of any point is the weight. -/
theorem blk_weightV (c : Dev nD) (t : Fin cfg0.N) (f : Fin 4096) (k : Fin 1024) :
    iblk m c 3 t (ix2 f k) = m ((c : Thread nD τ).loc main_arg3) (ix2 f k) := by
  obtain ⟨i0, i1⟩ := idx3 t
  show V m c main_v6 (((cfg0.win 3).blk t).view.emb (ix2 f k)) = _
  rw [Entry.weightV]
  refine congrArg _ (funext fun a => Fin.ext ?_)
  match a with
  | ⟨0, _⟩ => show win0_3.index t (0 : Fin 2) * 4096 + 1 * f.val = f.val; rw [i0]; omega
  | ⟨1, _⟩ => show win0_3.index t (1 : Fin 2) * 1024 + 1 * k.val = k.val; rw [i1]; omega

/-- The language weight block of any point is the weight. -/
theorem blk_weightL (c : Dev nD) (t : Fin cfg0.N) (h k : Fin 1024) :
    iblk m c 4 t (ix2 h k) = m ((c : Thread nD τ).loc main_arg5) (ix2 h k) := by
  obtain ⟨i0, i1⟩ := idx4 t
  show V m c main_v7 (((cfg0.win 4).blk t).view.emb (ix2 h k)) = _
  rw [Entry.weightL]
  refine congrArg _ (funext fun a => Fin.ext ?_)
  match a with
  | ⟨0, _⟩ => show win0_4.index t (0 : Fin 2) * 1024 + 1 * h.val = h.val; rw [i0]; omega
  | ⟨1, _⟩ => show win0_4.index t (1 : Fin 2) * 1024 + 1 * k.val = k.val; rw [i1]; omega

/-- The visual bias block of any point at column `k` is the bias at `k`. -/
theorem blk_biasV (c : Dev nD) (t : Fin cfg0.N) (k : Fin 1024) :
    iblk m c 5 t (ix2 (0 : Fin 1) k) = m ((c : Thread nD τ).loc main_arg4) (ix1 k) := by
  obtain ⟨i0, i1⟩ := idx5 t
  show V m c main_v8 (((cfg0.win 5).blk t).view.emb (ix2 (0 : Fin 1) k)) = _
  refine Entry.biasV m c _ k ?_
  show win0_5.index t (1 : Fin 2) * 1024 + 1 * k.val = k.val; rw [i1]; omega

/-- The language bias block of any point at column `k` is the bias at `k`. -/
theorem blk_biasL (c : Dev nD) (t : Fin cfg0.N) (k : Fin 1024) :
    iblk m c 6 t (ix2 (0 : Fin 1) k) = m ((c : Thread nD τ).loc main_arg6) (ix1 k) := by
  obtain ⟨i0, i1⟩ := idx6 t
  show V m c main_v9 (((cfg0.win 6).blk t).view.emb (ix2 (0 : Fin 1) k)) = _
  refine Entry.biasL m c _ k ?_
  show win0_6.index t (1 : Fin 2) * 1024 + 1 * k.val = k.val; rw [i1]; omega

/-! ## The language output (window 7) -/

/-- The flattened language specification of the launch arguments. -/
abbrev langOut (c : Dev nD) : S2048x1024.Idx → EReal :=
  langFlat (m ((c : Thread nD τ).loc main_arg1)) (m ((c : Thread nD τ).loc main_arg2))
    (m ((c : Thread nD τ).loc main_arg5)) (m ((c : Thread nD τ).loc main_arg6))

/-- WHAT POINT `t` WRITES BACK to the language output is block `t` of the flattened specification, the lengths being nonzero. -/
theorem flushed7_eq (c : Dev nD) (hN : ∀ i, m ((c : Thread nD τ).loc main_arg2) i ≠ 0#32) (t : Fin cfg0.N) :
    (dats m 0 c).flushed 7 t = ((cfg0.win 7).blk t).view.read (Elt Ideal) (langOut m c) := by
  show (cfg0.win 7).cut (grid0.coords t) ((dats m 0 c).after 7 t) = _
  rw [after0_7]
  unfold out0_7
  rw [View.canon_unit_zero hz2]
  simp only [View.ld_unit_zero (S := S64x20x1024) hz3, View.ld_unit_zero (S := S64x1) hz2,
    View.ld_unit_zero (S := S1024x1024) hz2, View.ld_unit_zero (S := S1x1024) hz2]
  obtain ⟨o0, o1⟩ := idx7 t
  funext y
  show k0_pay1 (F := Ideal) (iblk m c 0 t) (iblk m c 2 t) (iblk m c 4 t) (iblk m c 6 t) y
    = langOut m c (((cfg0.win 7).blk t).view.emb y)
  refine (Body.point_lang (iblk m c 0 t) (iblk m c 2 t) (iblk m c 4 t) (iblk m c 6 t) _ _ _ _ ⟨t.val, point_lt t⟩
    (fun n => hN _) (fun n p h => blk_tokens m c t n p h) (fun n => blk_recip m c t n)
    (fun h k => blk_weightL m c t h k) (fun k => blk_biasL m c t k) y).trans ?_
  refine (langFlat_at _ _ _ _ _ ⟨t.val, point_lt t⟩ (y 0) (y 1) ?_ ?_).symm
  · show win0_7.index t (0 : Fin 2) * 64 + 1 * (y 0).val = 64 * t.val + (y 0).val; rw [o0]; omega
  · show win0_7.index t (1 : Fin 2) * 1024 + 1 * (y 1).val = (y 1).val; rw [o1]; omega

/-- An index of the array is in point `t`'s block iff each coordinate is in the block's range on its axis. -/
theorem mem_blk7 (t : Fin cfg0.N) (i : S2048x1024.Idx) :
    i ∈ ((cfg0.win 7).blk t).view.set ↔ ∀ a : Fin 2, win0_7.index t a * S64x1024.size a ≤ (i a).val ∧ (i a).val < win0_7.index t a * S64x1024.size a + S64x1024.size a := by
  show i ∈ ((View.whole main_v10_0).slice (win0_7.rect t)).set ↔ _
  rw [View.set_slice_whole, Rect.mem_set_unit]
  exact Iff.rfl

/-- Every index of the language output is in some point's block: row `r` is in the block of point `r / 64`. -/
theorem cover7 (i : S2048x1024.Idx) : ∃ t : Fin cfg0.N, (cfg0.win 7).flush t = true ∧ i ∈ ((cfg0.win 7).blk t).view.set := by
  have hi0 : (i 0).val < 2048 := (i 0).isLt
  have hi1 : (i 1).val < 1024 := (i 1).isLt
  obtain ⟨t, ht⟩ := onto7 ⟨(i 0).val / 64, by omega⟩
  have q0 : win0_7.index t (0 : Fin 2) = (i 0).val / 64 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 1024 ≤ (i 1).val ∧ (i 1).val < win0_7.index t (1 : Fin 2) * 1024 + 1024; omega

/-- THE LANGUAGE OUTPUT after the region is the flattened specification. -/
theorem final7 (c : Dev nD) (hN : ∀ i, m ((c : Thread nD τ).loc main_arg2) i ≠ 0#32) :
    (dats m 0 c).arrAt 7 cfg0.N = langOut m c :=
  (dats m 0 c).arrAt_eq_of_cover 7 (langOut m c) (fun t _ => flushed7_eq m c hN t) cover7

/-! ## The visual output (window 8) -/

/-- The flattened visual specification of the launch arguments. -/
abbrev visOut (c : Dev nD) : S2048x1024.Idx → EReal :=
  visFlat (m ((c : Thread nD τ).loc main_arg0)) (m ((c : Thread nD τ).loc main_arg3)) (m ((c : Thread nD τ).loc main_arg4))

/-- WHAT POINT `t` WRITES BACK to the visual output is block `t` of the flattened specification. -/
theorem flushed8_eq (c : Dev nD) (t : Fin cfg0.N) :
    (dats m 0 c).flushed 8 t = ((cfg0.win 8).blk t).view.read (Elt Ideal) (visOut m c) := by
  show (cfg0.win 8).cut (grid0.coords t) ((dats m 0 c).after 8 t) = _
  rw [after0_8]
  unfold out0_8
  rw [View.canon_unit_zero hz2]
  simp only [View.ld_unit_zero (S := S64x4096) hz2, View.ld_unit_zero (S := S4096x1024) hz2,
    View.ld_unit_zero (S := S1x1024) hz2]
  obtain ⟨o0, o1⟩ := idx8 t
  funext y
  show k0_pay2 (F := Ideal) (iblk m c 1 t) (iblk m c 3 t) (iblk m c 5 t) y
    = visOut m c (((cfg0.win 8).blk t).view.emb y)
  refine (Body.point_vis (iblk m c 1 t) (iblk m c 3 t) (iblk m c 5 t) _ _ _ ⟨t.val, point_lt t⟩
    (fun n f => blk_vision m c t n f) (fun f k => blk_weightV m c t f k) (fun k => blk_biasV m c t k) y).trans ?_
  refine (visFlat_at _ _ _ _ ⟨t.val, point_lt t⟩ (y 0) (y 1) ?_ ?_).symm
  · show win0_8.index t (0 : Fin 2) * 64 + 1 * (y 0).val = 64 * t.val + (y 0).val; rw [o0]; omega
  · show win0_8.index t (1 : Fin 2) * 1024 + 1 * (y 1).val = (y 1).val; rw [o1]; omega

/-- An index of the array is in point `t`'s block iff each coordinate is in the block's range on its axis. -/
theorem mem_blk8 (t : Fin cfg0.N) (i : S2048x1024.Idx) :
    i ∈ ((cfg0.win 8).blk t).view.set ↔ ∀ a : Fin 2, win0_8.index t a * S64x1024.size a ≤ (i a).val ∧ (i a).val < win0_8.index t a * S64x1024.size a + S64x1024.size a := by
  show i ∈ ((View.whole main_v10_1).slice (win0_8.rect t)).set ↔ _
  rw [View.set_slice_whole, Rect.mem_set_unit]
  exact Iff.rfl

/-- Every index of the visual output is in some point's block. -/
theorem cover8 (i : S2048x1024.Idx) : ∃ t : Fin cfg0.N, (cfg0.win 8).flush t = true ∧ i ∈ ((cfg0.win 8).blk t).view.set := by
  have hi0 : (i 0).val < 2048 := (i 0).isLt
  have hi1 : (i 1).val < 1024 := (i 1).isLt
  obtain ⟨t, ht⟩ := onto8 ⟨(i 0).val / 64, by omega⟩
  have q0 : win0_8.index t (0 : Fin 2) = (i 0).val / 64 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 64 ≤ (i 0).val ∧ (i 0).val < win0_8.index t (0 : Fin 2) * 64 + 64; omega
  | ⟨1, _⟩ => show win0_8.index t (1 : Fin 2) * 1024 ≤ (i 1).val ∧ (i 1).val < win0_8.index t (1 : Fin 2) * 1024 + 1024; omega

/-- THE VISUAL OUTPUT after the region is the flattened specification. -/
theorem final8 (c : Dev nD) : (dats m 0 c).arrAt 8 cfg0.N = visOut m c :=
  (dats m 0 c).arrAt_eq_of_cover 8 (visOut m c) (fun t _ => flushed8_eq m c t) cover8

end Cert.RegionPool.Blocks

end
-- ==== Proof.KernelValue.lean ====
/-
  The kernel program's run with both results named.

  After the region, the two output arrays [2048, 1024] hold the flattened specification (rows `64·b + n`); the two
  operations that follow reshape them to [32, 64, 1024], and a reshape keeps the row-major position, so entry
  (b, n, k) of a result is entry (64·b + n, k) of its array: the specification's language and visual maps.
  The argument arrays are untouched by the operations around the region.
-/
import proofs.«173400_j9208409882645_2_alg».proof.Proof.Gen.KernelIdeal.Frame
import proofs.«173400_j9208409882645_2_alg».proof.Proof.KernelBlocks
import Idealize.ShloMosaic.Lib.StableHlo.Run
import Idealize.ShloMosaic.Lib.Pipeline.Value

noncomputable section

namespace Cert.RegionPool.KernelValue

open Idealize.ShloMosaic Idealize.ShloMosaic.TcCoe Idealize.SL.Sem Idealize.ShloMosaic.StableHlo
open Idealize.ShloMosaic.ValueIdx
open Cert.KernelIdeal Cert.KernelIdeal.Gen Cert.RegionPool.Blocks

variable (m : (ℓ : Loc nD τ sig) → Buf (Elt Ideal) ℓ) (ρ : Dev nD → PrngReg)

/-- A [2048, 1024] array reshaped to [32, 64, 1024], at (b, n, k): the array at (64·b + n, k). -/
theorem unflatten_apply (A : S2048x1024.Idx → EReal) (b : Fin 32) (n : Fin 64) (k : Fin 1024) :
    shapeCast S32x64x1024 A shapeCasts_S2048x1024_S32x64x1024 (ix3 b n k)
      = A (ix2 ⟨64 * b.val + n.val, by have := b.isLt; have := n.isLt; omega⟩ k) := by
  refine shapeCast_apply A _ (ix3 b n k) _ ?_
  rw [Shape.rowMajor_val_two, Shape.rowMajor_val_three]
  show (64 * b.val + n.val) * 1024 + k.val = (b.val * 64 + n.val) * 1024 + k.val
  ring

/-- THE LANGUAGE RESULT after the whole program is the specification's language map, the lengths being nonzero. -/
theorem tail_lang (c : Dev nD) (hN : ∀ i, m ((c : Thread nD τ).loc main_arg2) i ≠ 0#32) :
    Pipeline.afterTail₀ cfgs (dats m) 0 (V0 m) [hostOps1] c main_v11
      = langMap (m ((c : Thread nD τ).loc main_arg1)) (m ((c : Thread nD τ).loc main_arg2))
          (m ((c : Thread nD τ).loc main_arg5)) (m ((c : Thread nD τ).loc main_arg6)) := by
  unfold Pipeline.afterTail₀
  show StableHlo.after hostOps1 _ (Proc.devRef .tc main_v11) = _
  after_results
  have ew : Pipeline.withArrays (cfgs 0).spec c (V0 m c) (fun w => (dats m 0 c).arrAt w (cfgs 0).N) (Proc.devRef .tc main_v10_0)
      = langOut m c :=
    (Pipeline.withArrays_arr spec0 launch0.win.arr_inj c _ _ 7).trans (final7 m c hN)
  funext i
  obtain ⟨b, n, k, rfl⟩ : ∃ (b : Fin 32) (n : Fin 64) (k : Fin 1024), i = ix3 b n k := ⟨i 0, i 1, i 2, eq_ix3 i⟩
  show shapeCast S32x64x1024 (Pipeline.withArrays (cfgs 0).spec c (V0 m c) (fun w => (dats m 0 c).arrAt w (cfgs 0).N)
      (Proc.devRef .tc main_v10_0)) shapeCasts_S2048x1024_S32x64x1024 (ix3 b n k) = _
  rw [ew, unflatten_apply]
  exact langFlat_at _ _ _ _ _ b n k rfl rfl

/-- THE VISUAL RESULT after the whole program is the specification's visual map. -/
theorem tail_vis (c : Dev nD) :
    Pipeline.afterTail₀ cfgs (dats m) 0 (V0 m) [hostOps1] c main_v12
      = visMap (m ((c : Thread nD τ).loc main_arg0)) (m ((c : Thread nD τ).loc main_arg3))
          (m ((c : Thread nD τ).loc main_arg4)) := by
  unfold Pipeline.afterTail₀
  show StableHlo.after hostOps1 _ (Proc.devRef .tc main_v12) = _
  after_results
  have ew : Pipeline.withArrays (cfgs 0).spec c (V0 m c) (fun w => (dats m 0 c).arrAt w (cfgs 0).N) (Proc.devRef .tc main_v10_1)
      = visOut m c :=
    (Pipeline.withArrays_arr spec0 launch0.win.arr_inj c _ _ 8).trans (final8 m c)
  funext i
  obtain ⟨b, n, k, rfl⟩ : ∃ (b : Fin 32) (n : Fin 64) (k : Fin 1024), i = ix3 b n k := ⟨i 0, i 1, i 2, eq_ix3 i⟩
  show shapeCast S32x64x1024 (Pipeline.withArrays (cfgs 0).spec c (V0 m c) (fun w => (dats m 0 c).arrAt w (cfgs 0).N)
      (Proc.devRef .tc main_v10_1)) shapeCasts_S2048x1024_S32x64x1024 (ix3 b n k) = _
  rw [ew, unflatten_apply]
  exact visFlat_at _ _ _ _ b n k rfl rfl

/-- THE RUN: every weakly fair execution of the kernel program terminates with the two results at the specification's
    maps of the launch arguments and the arguments unchanged, the phrase lengths being nonzero. -/
theorem run (hN : ∀ (c : Dev nD) i, m ((c : Thread nD τ).loc main_arg2) i ≠ 0#32) :
    θ_run defs (onTc (τ := τ) (main (F := Ideal))) ⟨m, fun _ => 0, ρ⟩ (fun r => ∀ c : Dev nD,
      r.2.mem ((c.tc : Thread nD τ).loc main_v11)
          = langMap (m ((c : Thread nD τ).loc main_arg1)) (m ((c : Thread nD τ).loc main_arg2))
              (m ((c : Thread nD τ).loc main_arg5)) (m ((c : Thread nD τ).loc main_arg6))
      ∧ r.2.mem ((c.tc : Thread nD τ).loc main_v12)
          = visMap (m ((c : Thread nD τ).loc main_arg0)) (m ((c : Thread nD τ).loc main_arg3))
              (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v11 (Pipeline.mem_restRefs_of main_v11 (by decide) (by decide))).trans (tail_lang m c (hN c)),
      ((h c).2 main_v12 (Pipeline.mem_restRefs_of main_v12 (by decide) (by decide))).trans (tail_vis m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.RegionPool.KernelValue

end
-- ==== Proof.lean ====
/-
  The kernel computes, for each of the 32 × 64 regions, a language projection of the region's mean-pooled phrase
  tokens and a visual projection of its vision feature, and the reference computes the same two maps:

    language b n k = (Σ h < 1024, ((Σ p < 20, L b n p h) / N b n) · Wl h k) + bl k
    visual   b n k = (Σ f < 4096, V b n f · Wv f k) + bv k.

  The reference divides the token sum by the phrase length `N b n`; the kernel multiplies it by the reciprocal
  `1 / N b n` computed before the kernel is launched. On the extended reals the quotient by a nonzero real is the
  product with its reciprocal for every dividend, so the two agree exactly where the length is not zero, which the
  precondition states. The kernel's rounding of its matrix operands to bf16 is the identity on the extended reals, its
  lane reduction and the reference's reduction are the same 20-term sum from zero, its matrix products into a zero
  accumulator and the reference's contractions are the same sums, and the tiling into 32 blocks of 64 regions
  (row `64·b + n` of the flattened arrays is region (b, n)) only re-indexes. The kernel's idealization rewrote
  nothing. Each program terminates without fault and leaves its arguments unchanged.
-/
import proofs.«173400_j9208409882645_2_alg».proof.Defs
import proofs.«173400_j9208409882645_2_alg».proof.Proof.Gen.Kernel
import proofs.«173400_j9208409882645_2_alg».proof.Proof.Gen.Kernel.Skeleton
import proofs.«173400_j9208409882645_2_alg».proof.Proof.Gen.Kernel.Launch
import proofs.«173400_j9208409882645_2_alg».proof.Proof.Gen.Kernel.Points
import proofs.«173400_j9208409882645_2_alg».proof.Proof.Gen.Kernel.Frame
import proofs.«173400_j9208409882645_2_alg».proof.Proof.Gen.KernelIdeal
import proofs.«173400_j9208409882645_2_alg».proof.Proof.Gen.KernelIdeal.Skeleton
import proofs.«173400_j9208409882645_2_alg».proof.Proof.Gen.KernelIdeal.Launch
import proofs.«173400_j9208409882645_2_alg».proof.Proof.Gen.KernelIdeal.Points
import proofs.«173400_j9208409882645_2_alg».proof.Proof.Gen.KernelIdeal.Frame
import proofs.«173400_j9208409882645_2_alg».proof.Proof.Gen.ReferenceIdeal
import proofs.«173400_j9208409882645_2_alg».proof.Proof.Gen.Pre_finite_inputs
import proofs.«173400_j9208409882645_2_alg».proof.Proof.Gen.ReferenceIdeal.Run
import proofs.«173400_j9208409882645_2_alg».proof.Proof.Gen.ReferenceIdeal.Read
import proofs.«173400_j9208409882645_2_alg».proof.Proof.PreNonzero
import proofs.«173400_j9208409882645_2_alg».proof.Proof.RefIsSpec
import proofs.«173400_j9208409882645_2_alg».proof.Proof.KernelValue
import Idealize.ShloMosaic.Adequacy
import Idealize.ShloMosaic.Init

noncomputable section

namespace Cert.Proof

open Idealize.ShloMosaic Idealize.ShloMosaic.TcCoe Idealize.SL.Sem

/-- The kernel program, as printed, terminates without fault and keeps its arguments. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- So does the reference: its run, with the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories that agree on the arguments and satisfy the precondition, both idealized programs end with the
    specification's two maps of the arguments: the kernel's run (the phrase lengths are nonzero by the precondition)
    and the reference's run, whose two result terms are the specification read one operation at a time. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hN : ∀ (c : Dev Cert.KernelIdeal.nD) i,
      m ((c : Thread Cert.KernelIdeal.nD Cert.KernelIdeal.τ).loc Cert.KernelIdeal.main_arg2) i ≠ 0#32 :=
    fun c i => Cert.RegionPool.lengths_ne_zero _ _ _ _ _ _ _ (hpre c) i
  refine ⟨_, _, Cert.RegionPool.KernelValue.run m ρ hN, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v12_eq, Cert.RegionPool.ref_lang,
      (hagree c).2.1, (hagree c).2.2.1, (hagree c).2.2.2.2.2.1, (hagree c).2.2.2.2.2.2]
  · rw [(h c).2.1, Cert.ReferenceIdeal.Read.val_main_v8_eq, Cert.RegionPool.ref_vis,
      (hagree c).1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
